-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S8192x2048 : Shape := ⟨2, ![8192, 2048]⟩
abbrev S512x2048 : Shape := ⟨2, ![512, 2048]⟩
abbrev S1024x2048 : Shape := ⟨2, ![1024, 2048]⟩
abbrev S8192x8192 : Shape := ⟨2, ![8192, 8192]⟩
abbrev S256x2048 : Shape := ⟨2, ![256, 2048]⟩
abbrev S2048x2048 : Shape := ⟨2, ![2048, 2048]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S8192x8192, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | .local _ .vmem, ⟨8, _⟩ => ⟨S256x2048, .bf16⟩
  | .local _ .vmem, ⟨9, _⟩ => ⟨S256x2048, .bf16⟩
  | .local _ .vmem, ⟨10, _⟩ => ⟨S2048x2048, .bf16⟩
  | .local _ .vmem, ⟨11, _⟩ => ⟨S2048x2048, .bf16⟩
  | .local _ .vmem, ⟨12, _⟩ => ⟨S256x2048, .f32⟩
  | .local _ .vmem, ⟨13, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x2048.size a
  hwx1_1 : ∀ i : grid1.Coords, EltTy.bits .bf16 = 32 ∨ (Rect.block (s := S8192x2048) S1024x2048.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S8192x2048.size a
  hwx2_0 : ∀ i : grid2.Coords, EltTy.bits .bf16 = 32 ∨ (Rect.block (s := S8192x2048) S256x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S8192x2048.size a
  hwx2_1 : ∀ i : grid2.Coords, EltTy.bits .bf16 = 32 ∨ (Rect.block (s := S8192x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S8192x8192.size a
  hwx2_2 : ∀ i : grid2.Coords, EltTy.bits .f32 = 32 ∨ (Rect.block (s := S8192x8192) S256x2048.size (cc2_transform_2 i) (hinb2_2 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S_ : Shape := ⟨0, ![]⟩
abbrev S8192x8192 : Shape := ⟨2, ![8192, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .i1⟩
  | .hbm, ⟨6, _⟩ => ⟨S_, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  dot_S8192x2048_S8192x2048_S8192x8192_1_1_0_0_n_n_wf : DotDims.WF S8192x2048 S8192x2048 S8192x8192 [1] [1] [0] [0] [] []

variable [Facts₀]

def dot_S8192x2048_S8192x2048_S8192x8192_1_1_0_0_n_n : DotDims S8192x2048 S8192x2048 S8192x8192 where
  lhsContracting := [1]
  rhsContracting := [1]
  lhsNonContracting := [0]
  rhsNonContracting := [0]
  lhsBatch := []
  rhsBatch := []
  wf := dot_S8192x2048_S8192x2048_S8192x8192_1_1_0_0_n_n_wf

class Facts : Prop extends Facts₀ where

variable [Facts]
-- ==== Proof.Spec.lean ====
/-
  The function both programs compute, stated once over the extended reals.

  A weight is first hard-shrunk at the threshold 0.4 (kept where its magnitude exceeds the threshold, replaced by
  zero elsewhere) and then replaced by its sign, so every weight becomes -1, 0 or 1.  The result is the matrix
  product of the activations with the transposed ternary weights:

      y[t, o] = Σ_i x[t, i] · sign(shrink(W[o, i])).

  The threshold and the zero are kept as the 32-bit words both programs carry: the same words stand on both
  sides, so their values are never needed.
-/
import Idealize.ShloMosaic.PureOps.Ideal.Laws
import Idealize.ShloMosaic.Lib.ValueIdx

noncomputable section

namespace Cert.TernLinear

open Idealize.ShloMosaic Idealize.ShloMosaic.ValueIdx

/-- The shape of the activations and of the weights: 8192 rows of 2048 entries. -/
abbrev SA : Shape := ⟨2, ![8192, 2048]⟩
/-- The shape of the result: 8192 × 8192. -/
abbrev SY : Shape := ⟨2, ![8192, 8192]⟩

/-- Hard shrinkage at the threshold 0.4: `w` where `|w| > 0.4`, zero elsewhere. -/
def shrink (w : EReal) : EReal :=
  Scalar.select (FloatOps.cmpf (F := Ideal) (φ := .f32) .ogt (FloatOps.absf (F := Ideal) (φ := .f32) w) (Scalar.ofBits .f32 0x3ECCCCCD#32)) w
    (Scalar.ofBits (F := Ideal) .f32 0x00000000#32)

/-- The ternary weight: the sign of the shrunk weight, one of -1, 0, 1. -/
def tern (w : EReal) : EReal := Ideal.sign (shrink w)

/-- Row `a`, column `k` of an 8192 × 2048 array. -/
abbrev at2 (a : Fin 8192) (k : Fin 2048) : SA.Idx := ix2 a k

/-- The result: entry (t, o) is the sum over the 2048 input features of activation times ternary weight. -/
def G (x W : SA.Idx → EReal) : SY.Idx → EReal := fun i =>
  ∑ k : Fin 2048, x (at2 ⟨(i 0).val, idx2_lt0 i⟩ k) * tern (W (at2 ⟨(i 1).val, idx2_lt1 i⟩ k))

end Cert.TernLinear

end
-- ==== Proof.RefValue.lean ====
/-
  The reference's result is the specification `G`.

  The reference shrinks the weights (`|W| > 0.4` kept, zero elsewhere), takes their sign and contracts the second
  axis of the activations with the second axis of the ternary weights.  Read at an index (t, o) the contraction is
  the sum over k of x[t, k] times the ternary weight at (o, k); the shrink and the sign are pointwise, so the
  summand is the specification's summand.
-/
import proofs.«106911_j37812892074336_2_alg».proof.Proof.Gen.ReferenceIdeal.Read
import proofs.«106911_j37812892074336_2_alg».proof.Proof.Spec

noncomputable section

namespace Cert.ReferenceIdeal.RefValue

open Cert.ReferenceIdeal Cert.ReferenceIdeal.Read Idealize.ShloMosaic Idealize.ShloMosaic.ValueIdx Cert.TernLinear

/-- The ternary weights of the reference at an index: the sign of the shrunk weight. -/
theorem tern_apply (x1 : (⟨S8192x2048, .f32⟩ : BufTy).Contents (Elt Ideal)) (j : S8192x2048.Idx) :
    val_main_v4 (F := Ideal) x1 j = tern (x1 j) := rfl

/-- The reference's result is `G` of the two arguments. -/
theorem result_eq (x0 x1 : (⟨S8192x2048, .f32⟩ : BufTy).Contents (Elt Ideal)) :
    val_main_v5 (F := Ideal) x0 x1 = G x0 x1 := by
  funext i
  rw [val_main_v5_apply]
  refine Finset.sum_congr rfl fun k _ => ?_
  have el : lidx_main_v5 i k = at2 ⟨(i 0).val, idx2_lt0 i⟩ k := funext fun a => by
    match a with
    | ⟨0, _⟩ => rfl
    | ⟨1, _⟩ => rfl
  have er : ridx_main_v5 i k = at2 ⟨(i 1).val, idx2_lt1 i⟩ k := funext fun a => by
    match a with
    | ⟨0, _⟩ => rfl
    | ⟨1, _⟩ => rfl
  rw [el, er, tern_apply]

end Cert.ReferenceIdeal.RefValue

end
-- ==== Proof.TernValue.lean ====
/-
  The first kernel: the ternary weights.

  The grid has 16 points; point `t` reads rows 512·t … 512·t + 511 of the weights (all 2048 columns) and writes the
  same rows of the ternary array: each entry shrunk at 0.4 and replaced by its sign.  The body is pointwise, so
  what point `t` writes back is block `t` of one whole-array function, and the 16 blocks tile the 8192 rows:
  after the kernel the array holds `tern` of the weights at every index.  Everything is stated for arbitrary
  contents `V` of the buffers on entry.
-/
import proofs.«106911_j37812892074336_2_alg».proof.Proof.Gen.KernelIdeal.Frame
import proofs.«106911_j37812892074336_2_alg».proof.Proof.Spec
import Idealize.ShloMosaic.Lib.Pipeline.Value

set_option maxRecDepth 16384

noncomputable section

namespace Cert.KernelIdeal.TernValue

open Cert.KernelIdeal Cert.KernelIdeal.Gen Idealize.ShloMosaic Idealize.ShloMosaic.TcCoe Idealize.ShloMosaic.ValueIdx
open Idealize.SL.Sem Cert.TernLinear
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The ternary array as a function of the weights' array. -/
abbrev T (w : S8192x2048.Idx → EReal) : S8192x2048.Idx → EReal := fun i => tern (w i)

/-- The body's stored value at an entry: the entry of the loaded block, shrunk and replaced by its sign (the
    inner select is the sign of the shrunk value written with comparisons). -/
theorem pay_apply (x0 : Vec Ideal S512x2048 .f32) (j : S512x2048.Idx) : k0_pay1 (F := Ideal) x0 j = tern (x0 j) :=
  Ideal.jnp_sign_eq_sign_f32 (shrink (x0 j))

/-- The stored block as one function of the loaded block. -/
theorem pay_eq (x0 : Vec Ideal S512x2048 .f32) : k0_pay1 (F := Ideal) x0 = fun j => tern (x0 j) :=
  funext fun j => pay_apply x0 j

/-- The input block and the output block of a point are the same rows: both index maps send point `t` to
    block (t, 0), and there are 16 row blocks. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 15 ∧ win0_1.index t (1 : Fin 2) = 0 :=
  (by decide +kernel : ∀ t : Fin grid0.N, _)

/-- Every row block is some point's. -/
theorem idx_onto : ∀ q0 : Fin 16, ∃ t : Fin cfg0.N, win0_1.index t = ![q0.val, 0] :=
  (by decide +kernel : ∀ q0 : Fin 16, ∃ t : Fin grid0.N, win0_1.index t = ![q0.val, 0])

/-- What point `t` writes back is block `t` of the ternary array of the weights as the kernel finds them. -/
theorem flushed_eq (c : Dev nD) (t : Fin cfg0.N) :
    (dat0 V c).flushed 1 t = ((cfg0.win 1).blk t).view.read (Elt Ideal) (T (V c main_arg1)) := by
  show (cfg0.win 1).cut (grid0.coords t) ((dat0 V c).after 1 t) = _
  rw [after0_1]
  unfold out0_1
  rw [View.canon_unit_zero hz]
  simp only [View.ld_unit_zero (S := S512x2048) hz]
  rw [pay_eq]
  obtain ⟨e0, e1, e2, e3⟩ := idx_facts t
  funext j
  show tern (V c main_arg1 (((cfg0.win 0).blk t).view.emb j)) = tern (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 2048 + 1 * (j 1).val = win0_1.index t (1 : Fin 2) * 2048 + 1 * (j 1).val; omega
  rw [h0]

/-- An index of the array lies in point `t`'s block iff each coordinate lies in the block's range on its axis. -/
theorem mem_blk (t : Fin cfg0.N) (i : S8192x2048.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v0).slice (win0_1.rect t)).set ↔ _
  rw [View.set_slice_whole, Rect.mem_set_unit]
  exact Iff.rfl

/-- The 16 row blocks tile the array: row `r` lies in block `r / 512`. -/
theorem cover (i : S8192x2048.Idx) : ∃ t : Fin cfg0.N, (cfg0.win 1).flush t = true ∧ i ∈ ((cfg0.win 1).blk t).view.set := by
  have hi0 : (i 0).val < 8192 := (i 0).isLt
  have hi1 : (i 1).val < 2048 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 2048 ≤ (i 1).val ∧ (i 1).val < win0_1.index t (1 : Fin 2) * 2048 + 2048; omega

/-- After the kernel the ternary array holds `tern` of the weights at every index. -/
theorem final (c : Dev nD) : (dat0 V c).arrAt 1 cfg0.N = T (V c main_arg1) :=
  (dat0 V c).arrAt_eq_of_cover 1 (T (V c main_arg1)) (fun t _ => flushed_eq V c t) cover

end Cert.KernelIdeal.TernValue

end
-- ==== Proof.CastValue.lean ====
/-
  The second kernel: the activations in the narrower format.

  The grid has 8 points; point `t` reads rows 1024·t … 1024·t + 1023 of the activations and writes the same rows
  narrowed to sixteen bits.  Over the extended reals a change of format is the identity, the 8 blocks tile the
  8192 rows, so after the kernel the array holds the activations unchanged.  Everything is stated for arbitrary
  contents `V` of the buffers on entry.
-/
import proofs.«106911_j37812892074336_2_alg».proof.Proof.Gen.KernelIdeal.Frame
import Idealize.ShloMosaic.Lib.Pipeline.Value
import Idealize.ShloMosaic.Lib.ValueIdx

set_option maxRecDepth 16384

noncomputable section

namespace Cert.KernelIdeal.CastValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The narrowed array as a function of the activations' array: the same extended reals. -/
abbrev C (x : S8192x2048.Idx → EReal) : S8192x2048.Idx → EReal := fun i => x i

/-- The body's stored value at an entry is the loaded entry: narrowing is the identity on extended reals. -/
theorem pay_apply (x0 : Vec Ideal S1024x2048 .f32) (j : S1024x2048.Idx) : k1_pay1 (F := Ideal) x0 j = x0 j := rfl

/-- The stored block as one function of the loaded block. -/
theorem pay_eq (x0 : Vec Ideal S1024x2048 .f32) : k1_pay1 (F := Ideal) x0 = fun j => x0 j := rfl

/-- The input block and the output block of a point are the same rows, and there are 8 row blocks. -/
theorem idx_facts : ∀ t : Fin cfg1.N, win1_0.index t (0 : Fin 2) = win1_1.index t (0 : Fin 2)
    ∧ win1_0.index t (1 : Fin 2) = win1_1.index t (1 : Fin 2)
    ∧ win1_1.index t (0 : Fin 2) ≤ 7 ∧ win1_1.index t (1 : Fin 2) = 0 :=
  (by decide +kernel : ∀ t : Fin grid1.N, _)

/-- Every row block is some point's. -/
theorem idx_onto : ∀ q0 : Fin 8, ∃ t : Fin cfg1.N, win1_1.index t = ![q0.val, 0] :=
  (by decide +kernel : ∀ q0 : Fin 8, ∃ t : Fin grid1.N, win1_1.index t = ![q0.val, 0])

/-- What point `t` writes back is block `t` of the activations as the kernel finds them. -/
theorem flushed_eq (c : Dev nD) (t : Fin cfg1.N) :
    (dat1 V c).flushed 1 t = ((cfg1.win 1).blk t).view.read (Elt Ideal) (C (V c main_arg0)) := by
  show (cfg1.win 1).cut (grid1.coords t) ((dat1 V c).after 1 t) = _
  rw [after1_1]
  unfold out1_1
  rw [View.canon_unit_zero hz]
  simp only [View.ld_unit_zero (S := S1024x2048) hz]
  rw [pay_eq]
  obtain ⟨e0, e1, e2, e3⟩ := idx_facts t
  funext j
  show V c main_arg0 (((cfg1.win 0).blk t).view.emb j) = V c main_arg0 (((cfg1.win 1).blk t).view.emb j)
  have h0 : ((cfg1.win 0).blk t).view.emb j = ((cfg1.win 1).blk t).view.emb j := by
    funext a; apply Fin.ext
    match a with
    | ⟨0, _⟩ => show win1_0.index t (0 : Fin 2) * 1024 + 1 * (j 0).val = win1_1.index t (0 : Fin 2) * 1024 + 1 * (j 0).val; omega
    | ⟨1, _⟩ => show win1_0.index t (1 : Fin 2) * 2048 + 1 * (j 1).val = win1_1.index t (1 : Fin 2) * 2048 + 1 * (j 1).val; omega
  rw [h0]

/-- An index of the array lies in point `t`'s block iff each coordinate lies in the block's range on its axis. -/
theorem mem_blk (t : Fin cfg1.N) (i : S8192x2048.Idx) :
    i ∈ ((cfg1.win 1).blk t).view.set ↔ ∀ a : Fin 2, win1_1.index t a * S1024x2048.size a ≤ (i a).val ∧ (i a).val < win1_1.index t a * S1024x2048.size a + S1024x2048.size a := by
  show i ∈ ((View.whole main_v1).slice (win1_1.rect t)).set ↔ _
  rw [View.set_slice_whole, Rect.mem_set_unit]
  exact Iff.rfl

/-- The 8 row blocks tile the array: row `r` lies in block `r / 1024`. -/
theorem cover (i : S8192x2048.Idx) : ∃ t : Fin cfg1.N, (cfg1.win 1).flush t = true ∧ i ∈ ((cfg1.win 1).blk t).view.set := by
  have hi0 : (i 0).val < 8192 := (i 0).isLt
  have hi1 : (i 1).val < 2048 := (i 1).isLt
  obtain ⟨t, ht⟩ := idx_onto ⟨(i 0).val / 1024, by omega⟩
  have q0 : win1_1.index t (0 : Fin 2) = (i 0).val / 1024 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 2048 ≤ (i 1).val ∧ (i 1).val < win1_1.index t (1 : Fin 2) * 2048 + 2048; omega

/-- After the kernel the narrowed array holds the activations at every index. -/
theorem final (c : Dev nD) : (dat1 V c).arrAt 1 cfg1.N = C (V c main_arg0) :=
  (dat1 V c).arrAt_eq_of_cover 1 (C (V c main_arg0)) (fun t _ => flushed_eq V c t) cover

end Cert.KernelIdeal.CastValue

end
-- ==== Proof.MatmulValue.lean ====
/-
  The third kernel: the matrix product.

  The grid is 4 × 32: point (j, i) multiplies rows 256·i … 256·i + 255 of the narrowed activations by the
  transposed rows 2048·j … 2048·j + 2047 of the ternary weights, contracting the full 2048 input features in one
  step into a zero accumulator, and writes the 256 × 2048 tile (i, j) of the result.  Entry (p, q) of the tile is
  the sum over k of the activation block's (p, k) times the weight block's (q, k), that is entry
  (256·i + p, 2048·j + q) of the whole product.  The 32 × 4 tiles tile the 8192 × 8192 result.  Everything is
  stated for arbitrary contents `V` of the buffers on entry.
-/
import proofs.«106911_j37812892074336_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MatmulValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of two 8192 × 2048 arrays along their second axes: entry (t, o) is Σ_k a[t, k] · b[o, k]. -/
abbrev M (a b : S8192x2048.Idx → EReal) : S8192x8192.Idx → EReal := fun i =>
  ∑ k : Fin 2048, a (ix2 (⟨(i 0).val, idx2_lt0 i⟩ : Fin 8192) k) * b (ix2 (⟨(i 1).val, idx2_lt1 i⟩ : Fin 8192) k)

abbrev D := dot_S256x2048_S2048x2048_S256x2048_1_1_0_0_n_n

/-- The narrowed activations and the ternary weights as the kernel finds them, as real-valued arrays. -/
abbrev XA (c : Dev nD) : S8192x2048.Idx → EReal := V c main_v1
abbrev WA (c : Dev nD) : S8192x2048.Idx → EReal := V c main_v0

/-- The left operand's index at result entry `j`: its row is the result's row. -/
theorem lhs_row (j : S256x2048.Idx) (q : D.contr.Idx) : (D.lhsIdx j q 0).val = (j 0).val := by
  unfold DotDims.lhsIdx
  rw [dif_neg (show ¬(0 : Fin S256x2048.rank) ∈ D.lhsBatch by decide), dif_pos (show (0 : Fin S256x2048.rank) ∈ D.lhsNonContracting by decide)]
  rfl

/-- The right operand's index at result entry `j`: its row is the result's column. -/
theorem rhs_row (j : S256x2048.Idx) (q : D.contr.Idx) : (D.rhsIdx j q 0).val = (j 1).val := by
  unfold DotDims.rhsIdx
  rw [dif_neg (show ¬(0 : Fin S2048x2048.rank) ∈ D.rhsBatch by decide), dif_pos (show (0 : Fin S2048x2048.rank) ∈ D.rhsNonContracting by decide)]
  rfl

/-- The tile the body stores, at an entry (p, q): the sum over the 2048 features of the activation block at (p, k)
    times the weight block at (q, k) (the accumulator starts at zero, the two shape casts are to the same shape). -/
theorem pay_apply (x0 : FVec Ideal S256x2048 .bf16) (x1 : FVec Ideal S2048x2048 .bf16) (j : S256x2048.Idx) :
    k2_pay1 (F := Ideal) x0 x1 j
      = ∑ k : Fin 2048, x0 (ix2 (⟨(j 0).val, idx2_lt0 j⟩ : Fin 256) k) * x1 (ix2 (⟨(j 1).val, idx2_lt1 j⟩ : Fin 2048) k) := by
  unfold k2_pay1
  simp only [shapeCast_self]
  refine (Ideal.matmul_constant_zero_apply D none x0 x1 j).trans ?_
  rw [← Equiv.sum_comp (contrEquiv1 D 2048 rfl rfl).symm]
  refine Finset.sum_congr rfl fun k _ => ?_
  have hk := contrEquiv1_symm_val D 2048 rfl rfl k
  have el : D.lhsIdx j ((contrEquiv1 D 2048 rfl rfl).symm k) = ix2 (⟨(j 0).val, idx2_lt0 j⟩ : Fin 256) k := funext fun a => Fin.ext (by
    match a with
    | ⟨0, _⟩ => exact lhs_row _ _
    | ⟨1, _⟩ => exact (D.lhsIdx_val_of_single rfl j _).trans hk)
  have er : D.rhsIdx j ((contrEquiv1 D 2048 rfl rfl).symm k) = ix2 (⟨(j 1).val, idx2_lt1 j⟩ : Fin 2048) k := funext fun a => Fin.ext (by
    match a with
    | ⟨0, _⟩ => exact rhs_row _ _
    | ⟨1, _⟩ => exact (D.rhsIdx_val_of_single rfl j _).trans hk)
  rw [el, er]

/-- The stored tile as one function of the two loaded blocks. -/
theorem pay_eq (x0 : FVec Ideal S256x2048 .bf16) (x1 : FVec Ideal S2048x2048 .bf16) :
    k2_pay1 (F := Ideal) x0 x1
      = fun j => ∑ k : Fin 2048, x0 (ix2 (⟨(j 0).val, idx2_lt0 j⟩ : Fin 256) k) * x1 (ix2 (⟨(j 1).val, idx2_lt1 j⟩ : Fin 2048) k) :=
  funext fun j => pay_apply x0 x1 j

/-- The index maps over the grid: the activation block's row block is the tile's row block, the weight block's row
    block is the tile's column block, both operands take all their columns; there are 32 × 4 tiles. -/
theorem idx_facts : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 31 ∧ win2_2.index t (1 : Fin 2) ≤ 3 :=
  (by decide +kernel : ∀ t : Fin grid2.N, _)

/-- Every tile is some point's. -/
theorem idx_onto : ∀ (q0 : Fin 32) (q1 : Fin 4), ∃ t : Fin cfg2.N, win2_2.index t = ![q0.val, q1.val] :=
  (by decide +kernel : ∀ (q0 : Fin 32) (q1 : Fin 4), ∃ t : Fin grid2.N, win2_2.index t = ![q0.val, q1.val])

/-- Where an entry of the activation block sits in its array. -/
theorem emb0 (t : Fin cfg2.N) (y : S256x2048.Idx) :
    ((cfg2.win 0).blk t).view.emb y = ix2 (⟨win2_0.index t (0 : Fin 2) * 256 + (y 0).val, by
        have := (idx_facts t).1; have := (idx_facts t).2.2.2.2.1; have : (y 0).val < 256 := (y 0).isLt; omega⟩ : Fin 8192)
      (⟨win2_0.index t (1 : Fin 2) * 2048 + (y 1).val, by have := (idx_facts t).2.1; have : (y 1).val < 2048 := (y 1).isLt; omega⟩ : Fin 2048) := by
  funext a; apply Fin.ext
  match a with
  | ⟨0, _⟩ => show win2_0.index t (0 : Fin 2) * 256 + 1 * (y 0).val = win2_0.index t (0 : Fin 2) * 256 + (y 0).val; omega
  | ⟨1, _⟩ => show win2_0.index t (1 : Fin 2) * 2048 + 1 * (y 1).val = win2_0.index t (1 : Fin 2) * 2048 + (y 1).val; omega

/-- Where an entry of the weight block sits in its array. -/
theorem emb1 (t : Fin cfg2.N) (y : S2048x2048.Idx) :
    ((cfg2.win 1).blk t).view.emb y = ix2 (⟨win2_1.index t (0 : Fin 2) * 2048 + (y 0).val, by
        have := (idx_facts t).2.2.1; have := (idx_facts t).2.2.2.2.2; have : (y 0).val < 2048 := (y 0).isLt; omega⟩ : Fin 8192)
      (⟨win2_1.index t (1 : Fin 2) * 2048 + (y 1).val, by have := (idx_facts t).2.2.2.1; have : (y 1).val < 2048 := (y 1).isLt; omega⟩ : Fin 2048) := by
  funext a; apply Fin.ext
  match a with
  | ⟨0, _⟩ => show win2_1.index t (0 : Fin 2) * 2048 + 1 * (y 0).val = win2_1.index t (0 : Fin 2) * 2048 + (y 0).val; omega
  | ⟨1, _⟩ => show win2_1.index t (1 : Fin 2) * 2048 + 1 * (y 1).val = win2_1.index t (1 : Fin 2) * 2048 + (y 1).val; omega

/-- Where an entry of the result tile sits in the result. -/
theorem emb2 (t : Fin cfg2.N) (y : S256x2048.Idx) (a : Fin 2) :
    ((((cfg2.win 2).blk t).view.emb y) a).val = win2_2.index t a * S256x2048.size a + (y a).val := by
  match a with
  | ⟨0, _⟩ => show win2_2.index t (0 : Fin 2) * 256 + 1 * (y 0).val = win2_2.index t (0 : Fin 2) * 256 + (y 0).val; omega
  | ⟨1, _⟩ => show win2_2.index t (1 : Fin 2) * 2048 + 1 * (y 1).val = win2_2.index t (1 : Fin 2) * 2048 + (y 1).val; omega

/-- What point `t` writes back is tile `t` of the product of the two arrays as the kernel finds them. -/
theorem flushed_eq (c : Dev nD) (t : Fin cfg2.N) :
    (dat2 V c).flushed 2 t = ((cfg2.win 2).blk t).view.read (Elt Ideal) (M (V c main_v1) (V c main_v0)) := by
  show (cfg2.win 2).cut (grid2.coords t) ((dat2 V c).after 2 t) = _
  rw [after2_2]
  unfold out2_2
  rw [View.canon_unit_zero hz]
  simp only [View.ld_unit_zero (S := S256x2048) hz, View.ld_unit_zero (S := S2048x2048) hz]
  rw [pay_eq]
  obtain ⟨e0, e1, e2, e3, e4, e5⟩ := idx_facts t
  funext j
  show (∑ k : Fin 2048, XA V c (((cfg2.win 0).blk t).view.emb (ix2 (⟨(j 0).val, idx2_lt0 j⟩ : Fin 256) k))
        * WA V c (((cfg2.win 1).blk t).view.emb (ix2 (⟨(j 1).val, idx2_lt1 j⟩ : Fin 2048) k)))
      = M (XA V c) (WA V c) (((cfg2.win 2).blk t).view.emb j)
  refine Finset.sum_congr rfl fun k _ => ?_
  rw [emb0, emb1]
  have h0 := emb2 t j 0
  have h1 := emb2 t j 1
  have hl : (ix2 (⟨win2_0.index t (0 : Fin 2) * 256 + (j 0).val, by have : (j 0).val < 256 := (j 0).isLt; omega⟩ : Fin 8192)
        (⟨win2_0.index t (1 : Fin 2) * 2048 + k.val, by have := k.isLt; omega⟩ : Fin 2048) : S8192x2048.Idx)
      = ix2 (⟨((((cfg2.win 2).blk t).view.emb j) 0).val, idx2_lt0 _⟩ : Fin 8192) k := by
    funext a; apply Fin.ext
    match a with
    | ⟨0, _⟩ => show win2_0.index t (0 : Fin 2) * 256 + (j 0).val = ((((cfg2.win 2).blk t).view.emb j) 0).val; rw [h0]; show _ = win2_2.index t (0 : Fin 2) * 256 + (j 0).val; omega
    | ⟨1, _⟩ => show win2_0.index t (1 : Fin 2) * 2048 + k.val = k.val; omega
  have hr : (ix2 (⟨win2_1.index t (0 : Fin 2) * 2048 + (j 1).val, by have : (j 1).val < 2048 := (j 1).isLt; omega⟩ : Fin 8192)
        (⟨win2_1.index t (1 : Fin 2) * 2048 + k.val, by have := k.isLt; omega⟩ : Fin 2048) : S8192x2048.Idx)
      = ix2 (⟨((((cfg2.win 2).blk t).view.emb j) 1).val, idx2_lt1 _⟩ : Fin 8192) k := by
    funext a; apply Fin.ext
    match a with
    | ⟨0, _⟩ => show win2_1.index t (0 : Fin 2) * 2048 + (j 1).val = ((((cfg2.win 2).blk t).view.emb j) 1).val; rw [h1]; show _ = win2_2.index t (1 : Fin 2) * 2048 + (j 1).val; omega
    | ⟨1, _⟩ => show win2_1.index t (1 : Fin 2) * 2048 + k.val = k.val; omega
  exact congrArg₂ (fun a b => XA V c a * WA V c b) hl hr

/-- An index of the result lies in point `t`'s tile iff each coordinate lies in the tile's range on its axis. -/
theorem mem_blk (t : Fin cfg2.N) (i : S8192x8192.Idx) :
    i ∈ ((cfg2.win 2).blk t).view.set ↔ ∀ a : Fin 2, win2_2.index t a * S256x2048.size a ≤ (i a).val ∧ (i a).val < win2_2.index t a * S256x2048.size a + S256x2048.size a := by
  show i ∈ ((View.whole main_v2).slice (win2_2.rect t)).set ↔ _
  rw [View.set_slice_whole, Rect.mem_set_unit]
  exact Iff.rfl

/-- The tiles tile the result: entry (r, q) lies in tile (r / 256, q / 2048). -/
theorem cover (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := idx_onto ⟨(i 0).val / 256, by omega⟩ ⟨(i 1).val / 2048, by omega⟩
  have q0 : win2_2.index t (0 : Fin 2) = (i 0).val / 256 := congrFun ht 0
  have q1 : win2_2.index t (1 : Fin 2) = (i 1).val / 2048 := congrFun ht 1
  refine ⟨t, flush2_2 t, ?_⟩
  rw [mem_blk]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 2048 ≤ (i 1).val ∧ (i 1).val < win2_2.index t (1 : Fin 2) * 2048 + 2048; omega

/-- After the kernel the result holds the product of the two arrays at every index. -/
theorem final (c : Dev nD) : (dat2 V c).arrAt 2 cfg2.N = M (V c main_v1) (V c main_v0) :=
  (dat2 V c).arrAt_eq_of_cover 2 (M (V c main_v1) (V c main_v0)) (fun t _ => flushed_eq V c t) cover

end Cert.KernelIdeal.MatmulValue

end
-- ==== Proof.KernelRun.lean ====
/-
  The whole program: the three kernels in sequence, and what the result array holds at the end.

  The program runs the ternary-weights kernel on the weights, the narrowing kernel on the activations, and the
  matrix-product kernel on the two arrays they leave.  No kernel touches an array that is not its own operand or
  result, so each later kernel finds the earlier results in place:
    * the product kernel finds the narrowed activations as the second kernel left them — the activations
      themselves — and the ternary weights as the first kernel left them, both kernels having found their
      argument as launched;
    * so the result array ends at Σ_k x[t, k] · tern(W[o, k]), the specification `G` of the launch contents.
  The run itself — every weakly fair execution terminates without a fault — is the generated segments' run, read
  at the end for the result array as well as for the two arguments.
-/
import proofs.«106911_j37812892074336_2_alg».proof.Proof.Gen.KernelIdeal.Frame
import proofs.«106911_j37812892074336_2_alg».proof.Proof.Spec
import proofs.«106911_j37812892074336_2_alg».proof.Proof.TernValue
import proofs.«106911_j37812892074336_2_alg».proof.Proof.CastValue
import proofs.«106911_j37812892074336_2_alg».proof.Proof.MatmulValue

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TernLinear

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents
    the last kernel's write-backs leave, and the two arguments end as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c)⟩)

end Run

/-! ## What the result array holds -/

variable (m : (ℓ : Loc nD τ sig) → Buf (Elt Ideal) ℓ) (ρ : Dev nD → PrngReg)

/-- The product kernel finds the narrowed activations as the second kernel left them: the activations as launched
    (the first kernel does not write them). -/
theorem entry_x (c : Dev nD) : V2 m ρ c main_v1 = CastValue.C (m ((c : Thread nD τ).loc main_arg0)) :=
  calc V2 m ρ c main_v1
    _ = (dat1 (V1 m ρ) c).arrAt 1 cfg1.N := W2_arr m ρ c 1
    _ = CastValue.C (V1 m ρ c main_arg0) := CastValue.final (V1 m ρ) c
    _ = CastValue.C (m ((c : Thread nD τ).loc main_arg0)) :=
        congrArg CastValue.C (W1_of_ne m ρ c main_arg0 (by decide))

/-- The product kernel finds the ternary weights as the first kernel left them (the second kernel does not write
    them): `tern` of the weights as launched. -/
theorem entry_w (c : Dev nD) : V2 m ρ c main_v0 = TernValue.T (m ((c : Thread nD τ).loc main_arg1)) :=
  calc V2 m ρ c main_v0
    _ = W1 m ρ c (Proc.devRef .tc main_v0) := W2_of_ne m ρ c main_v0 (by decide)
    _ = (dat0 (V0 m ρ) c).arrAt 1 cfg0.N := W1_arr m ρ c 1
    _ = TernValue.T (V0 m ρ c main_arg1) := TernValue.final (V0 m ρ) c

/-- The product of the activations with the ternary weights is the specification. -/
theorem product_eq (x w : S8192x2048.Idx → EReal) : MatmulValue.M (CastValue.C x) (TernValue.T w) = G x w := rfl

/-- The result array ends at `G` of the launch contents of the two arguments. -/
theorem result_eq (c : Dev nD) :
    W3 m ρ c (Proc.devRef .tc main_v2) = G (m ((c : Thread nD τ).loc main_arg0)) (m ((c : Thread nD τ).loc main_arg1)) :=
  calc W3 m ρ c (Proc.devRef .tc main_v2)
    _ = (dat2 (V2 m ρ) c).arrAt 2 cfg2.N := W3_arr m ρ c 2
    _ = MatmulValue.M (V2 m ρ c main_v1) (V2 m ρ c main_v0) := MatmulValue.final (V2 m ρ) c
    _ = MatmulValue.M (CastValue.C (m ((c : Thread nD τ).loc main_arg0))) (TernValue.T (m ((c : Thread nD τ).loc main_arg1))) := by
        rw [entry_x, entry_w]
    _ = G (m ((c : Thread nD τ).loc main_arg0)) (m ((c : Thread nD τ).loc main_arg1)) := product_eq _ _

/-- The idealized kernel's run: the result array ends at `G` of the arguments, the arguments as launched. -/
theorem run : θ_run defs (onTc (τ := τ) (main (F := Ideal))) ⟨m, fun _ => 0, ρ⟩ (fun r => ∀ c : Dev nD,
      r.2.mem ((c.tc : Thread nD τ).loc main_v2) = G (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_named m ρ)

end Cert.KernelIdeal.RunValue

end
-- ==== Proof.lean ====
/-
  A ternary linear layer: y = x · ternarize(W)ᵀ with x, W : f32[8192, 2048] and y : f32[8192, 8192].

  The kernel program is three kernels: one replaces every weight by the sign of its hard-shrunk value
  (|w| > 0.4 kept, zero elsewhere; so -1, 0 or 1), one narrows the activations to sixteen bits, and one multiplies
  256-row blocks of the narrowed activations by 2048-row blocks of the ternary weights, contracting all 2048 input
  features at once.  The reference shrinks, takes the sign and contracts the same axes in one product.

  Over the extended reals narrowing is the identity, the kernel's sign — spelt "1 with the sign bit of v where
  |v| > 0, v itself elsewhere", the sign bit read as the comparison v < 0 — is the sign function, and both
  programs use the same two words for the threshold and for zero.  So both results are, entry by entry,

      y[t, o] = Σ_k x[t, k] · sign(shrink(W[o, k]))

  with the terms in the same order: no law of arithmetic beyond that is used, and the finiteness of the inputs is
  not needed.  The one rewrite the idealization made, the sign bit read as a comparison, is the rule's own statement.
-/
import proofs.«106911_j37812892074336_2_alg».proof.Defs
import proofs.«106911_j37812892074336_2_alg».proof.Proof.Gen.Kernel
import proofs.«106911_j37812892074336_2_alg».proof.Proof.Gen.Kernel.Frame
import proofs.«106911_j37812892074336_2_alg».proof.Proof.Gen.KernelIdeal
import proofs.«106911_j37812892074336_2_alg».proof.Proof.Gen.KernelIdeal.Frame
import proofs.«106911_j37812892074336_2_alg».proof.Proof.Gen.ReferenceIdeal
import proofs.«106911_j37812892074336_2_alg».proof.Proof.Gen.ReferenceIdeal.Run
import proofs.«106911_j37812892074336_2_alg».proof.Proof.Gen.ReferenceIdeal.Read
import proofs.«106911_j37812892074336_2_alg».proof.Proof.Gen.Pre_finite_inputs
import proofs.«106911_j37812892074336_2_alg».proof.Proof.Spec
import proofs.«106911_j37812892074336_2_alg».proof.Proof.RefValue
import proofs.«106911_j37812892074336_2_alg».proof.Proof.KernelRun
import Idealize.ShloMosaic.Adequacy
import Idealize.ShloMosaic.Init

noncomputable section

namespace Cert.Proof

open Idealize.ShloMosaic Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: "1 with the sign bit of v" read as "−1 where v < 0, 1 elsewhere". -/
theorem preserves : Cert.preserves_Kernel_KernelIdeal :=
  IdealRules.sign_bit.statement Cert.KernelIdeal.S512x2048 .f32

/-- From memories that agree on the arguments both programs end with the result Σ_k x[t, k] · tern(W[o, k]). -/
theorem algebraic : Cert.algebraic_KernelIdeal_ReferenceIdeal := by
  intro m ρ m' ρ' _ hagree
  refine ⟨fun c => Cert.TernLinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
